-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x2048 .f32) (main_arg1 : FVec F S8192x2048 .f32) (main_arg2 : FVec F S8192 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192x2048 : Shape := ⟨2, ![8192, 2048]⟩
abbrev S8192 : Shape := ⟨1, ![8192]⟩
abbrev S1x8192 : Shape := ⟨2, ![1, 8192]⟩
abbrev S8192x8192 : Shape := ⟨2, ![8192, 8192]⟩
abbrev S4096x256 : Shape := ⟨2, ![4096, 256]⟩
abbrev S1024x256 : Shape := ⟨2, ![1024, 256]⟩
abbrev S1x1024 : Shape := ⟨2, ![1, 1024]⟩
abbrev S4096x1024 : Shape := ⟨2, ![4096, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192, .f32⟩
  | .hbm, ⟨3, _⟩ => ⟨S1x8192, .f32⟩
  | .hbm, ⟨4, _⟩ => ⟨S8192x8192, .f32⟩
  | .local _ .vmem, ⟨0, _⟩ => ⟨S4096x256, .f32⟩
  | .local _ .vmem, ⟨1, _⟩ => ⟨S4096x256, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1x1024, .f32⟩
  | .local _ .vmem, ⟨6, _⟩ => ⟨S4096x1024, .f32⟩
  | .local _ .vmem, ⟨7, _⟩ => ⟨S4096x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8192_S1x8192 : S8192.ShapeCasts S1x8192
  inb_S4096x256_S4096x256_0_0 : ∀ a, (![0, 0] : Fin 2 → Nat) a + S4096x256.size a ≤ S4096x256.size a
  h_S4096x256 : 0 < S4096x256.numel
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S4096x1024 : S1x1024.Broadcasts S4096x1024
  inb_S4096x1024_S4096x1024_0_0 : ∀ a, (![0, 0] : Fin 2 → Nat) a + S4096x1024.size a ≤ S4096x1024.size a
  h_S4096x1024 : 0 < S4096x1024.numel
  dot_S4096x256_S1024x256_S4096x1024_1_1_0_0_n_n_wf : DotDims.WF S4096x256 S1024x256 S4096x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S8192x2048.size a
  hwx0_0 : ∀ i : grid0.Coords, EltTy.bits .f32 = 32 ∨ (Rect.block (s := S8192x2048) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x2048.size a
  hwx0_1 : ∀ i : grid0.Coords, EltTy.bits .f32 = 32 ∨ (Rect.block (s := S8192x2048) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S8192x8192.size a
  hwx0_3 : ∀ i : grid0.Coords, EltTy.bits .f32 = 32 ∨ (Rect.block (s := S8192x8192) S4096x1024.size (cc0_transform_3 i) (hinb0_3 i)).WholeWords (EltTy.packing .f32)

variable [Facts₀]

def dot_S4096x256_S1024x256_S4096x1024_1_1_0_0_n_n : DotDims S4096x256 S1024x256 S4096x1024 where
  lhsContracting := [1]
  rhsContracting := [1]
  lhsNonContracting := [0]
  rhsNonContracting := [0]
  lhsBatch := []
  rhsBatch := []
  wf := dot_S4096x256_S1024x256_S4096x1024_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S8x8 : Shape := ⟨2, ![8, 8]⟩
abbrev S_ : Shape := ⟨0, ![]⟩
abbrev S1024x256 : Shape := ⟨2, ![1024, 256]⟩
abbrev S8x1x8x1 : Shape := ⟨4, ![8, 1, 8, 1]⟩
abbrev S1x1024x1x256 : Shape := ⟨4, ![1, 1024, 1, 256]⟩
abbrev S8x1024x8x256 : Shape := ⟨4, ![8, 1024, 8, 256]⟩
abbrev S2048x8192 : Shape := ⟨2, ![2048, 8192]⟩
abbrev S8192x8192 : Shape := ⟨2, ![8192, 8192]⟩
abbrev S1x8192 : Shape := ⟨2, ![1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S_, .f32⟩
  | .hbm, ⟨11, _⟩ => ⟨S1024x256, .f32⟩
  | .hbm, ⟨12, _⟩ => ⟨S8x1x8x1, .f32⟩
  | .hbm, ⟨13, _⟩ => ⟨S1x1024x1x256, .f32⟩
  | .hbm, ⟨14, _⟩ => ⟨S8x1024x8x256, .f32⟩
  | .hbm, ⟨15, _⟩ => ⟨S8x1024x8x256, .f32⟩
  | .hbm, ⟨16, _⟩ => ⟨S8x1024x8x256, .f32⟩
  | .hbm, ⟨17, _⟩ => ⟨S8192x2048, .f32⟩
  | .hbm, ⟨18, _⟩ => ⟨S8192x2048, .f32⟩
  | .hbm, ⟨19, _⟩ => ⟨S2048x8192, .f32⟩
  | .hbm, ⟨20, _⟩ => ⟨S8192x8192, .f32⟩
  | .hbm, ⟨21, _⟩ => ⟨S1x8192, .f32⟩
  | .hbm, ⟨22, _⟩ => ⟨S8192x8192, .f32⟩
  | .hbm, ⟨23, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S8x8 : S_.BroadcastsInDim S8x8 (![] : Fin 0 → Fin S8x8.rank)
  bcast_S_S1024x256 : S_.BroadcastsInDim S1024x256 (![] : Fin 0 → Fin S1024x256.rank)
  bcast_S8x8_S8x1x8x1_0_2 : S8x8.BroadcastsInDim S8x1x8x1 (![0, 2] : Fin 2 → Fin S8x1x8x1.rank)
  bcast_S1024x256_S1x1024x1x256_1_3 : S1024x256.BroadcastsInDim S1x1024x1x256 (![1, 3] : Fin 2 → Fin S1x1024x1x256.rank)
  bcast_S8x1x8x1_S8x1024x8x256_0_1_2_3 : S8x1x8x1.BroadcastsInDim S8x1024x8x256 (![0, 1, 2, 3] : Fin 4 → Fin S8x1024x8x256.rank)
  bcast_S1x1024x1x256_S8x1024x8x256_0_1_2_3 : S1x1024x1x256.BroadcastsInDim S8x1024x8x256 (![0, 1, 2, 3] : Fin 4 → Fin S8x1024x8x256.rank)
  shapeCasts_S8x1024x8x256_S8192x2048 : S8x1024x8x256.ShapeCasts S8192x2048
  transposes_S8192x2048_S2048x8192_1_0 : S8192x2048.Transposes [1, 0] S2048x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.Spec.lean ====
/-
  The block-diagonal linear layer as ONE function of its three argument arrays, and the one law of sums behind it.

  The output has 8192 columns in 8 groups of 1024; the hidden axis has 2048 positions in 8 groups of 256. Output
  column `o` lies in group `g = o / 1024`, and only the hidden positions of the same group, `g · 256 + k` for
  `k < 256`, contribute to it:
      out[r, o] = Σ_{k < 256} x[r, g·256 + k] · w[o, g·256 + k] + bias[o].
  A dense product over all 2048 hidden positions against a weight multiplied by the block-diagonal 0/1 pattern is
  the same number: a term whose hidden position lies in another group carries the factor 0 and vanishes — on the
  extended reals too, where `a · 0 = 0` for EVERY `a`, the infinities included, so no finiteness is used — and a
  term inside the group carries the factor 1. Sums on the extended reals are commutative and associative, which is
  all the re-indexing needs.
-/
import Idealize.ShloMosaic.PureOps.Ideal
import Idealize.ShloMosaic.Lib.ValueIdx

noncomputable section

namespace Cert.BlockLinear

open Idealize.ShloMosaic Idealize.ShloMosaic.ValueIdx

/-- Hidden position `g · 256 + k`: the `k`-th position of group `g`. -/
def hid (g : Fin 8) (k : Fin 256) : Fin 2048 := ⟨g.val * 256 + k.val, by omega⟩

/-- The group of output column `o`. -/
def grp (o : Fin 8192) : Fin 8 := ⟨o.val / 1024, by omega⟩

@[simp] theorem hid_val (g : Fin 8) (k : Fin 256) : (hid g k).val = g.val * 256 + k.val := rfl
@[simp] theorem grp_val (o : Fin 8192) : (grp o).val = o.val / 1024 := rfl

/-- Distinct positions inside a group are distinct hidden positions. -/
theorem hid_injective (g : Fin 8) : Function.Injective (hid g) := fun k k' h => by
  have e : g.val * 256 + k.val = g.val * 256 + k'.val := congrArg Fin.val h
  exact Fin.ext (by omega)

/-- Every position `g · 256 + k` lies in group `g`. -/
theorem hid_div (g : Fin 8) (k : Fin 256) : (hid g k).val / 256 = g.val := by
  show (g.val * 256 + k.val) / 256 = g.val
  omega

/-- A hidden position that is no `g · 256 + k` lies in another group. -/
theorem div_ne_of_not_mem_range (g : Fin 8) (h : Fin 2048) (hh : h ∉ Set.range (hid g)) : h.val / 256 ≠ g.val := by
  intro e
  refine hh ⟨⟨h.val % 256, Nat.mod_lt _ (by decide)⟩, Fin.ext ?_⟩
  show g.val * 256 + h.val % 256 = h.val
  omega

/-- THE LAW. Over the 2048 hidden positions, a sum of products whose second factor is multiplied by a pattern `μ`
    that is `1` on group `g` and `0` off it is the sum over that group's 256 positions alone: the terms off the group
    are `f h · (w h · 0) = 0`, those on it `f h · (w h · 1)`. -/
theorem sum_masked (g : Fin 8) (f w μ : Fin 2048 → EReal)
    (hin : ∀ h : Fin 2048, h.val / 256 = g.val → μ h = 1) (hout : ∀ h : Fin 2048, h.val / 256 ≠ g.val → μ h = 0) :
    ∑ h : Fin 2048, f h * (w h * μ h) = ∑ k : Fin 256, f (hid g k) * w (hid g k) := by
  symm
  refine Fintype.sum_of_injective (hid g) (hid_injective g) _ _ (fun h hh => ?_) (fun k => ?_)
  · rw [hout h (div_ne_of_not_mem_range g h hh), mul_zero, mul_zero]
  · rw [hin _ (hid_div g k), mul_one]

/-- THE FUNCTION both programs compute, at row `r` and output column `o`: the product of row `r` of `x` with row `o` of
    `w` over the hidden positions of `o`'s group, plus the bias of column `o`. -/
def G (x w : (⟨2, ![8192, 2048]⟩ : Shape).Idx → EReal) (b : (⟨1, ![8192]⟩ : Shape).Idx → EReal) :
    (⟨2, ![8192, 8192]⟩ : Shape).Idx → EReal :=
  fun i => (∑ k : Fin 256, x (ix2 (i 0) (hid (grp (i 1)) k)) * w (ix2 (i 1) (hid (grp (i 1)) k))) + b (ix1 (i 1))

theorem G_apply (x w : (⟨2, ![8192, 2048]⟩ : Shape).Idx → EReal) (b : (⟨1, ![8192]⟩ : Shape).Idx → EReal)
    (r o : Fin 8192) :
    G x w b (ix2 r o) = (∑ k : Fin 256, x (ix2 r (hid (grp o) k)) * w (ix2 o (hid (grp o) k))) + b (ix1 o) := rfl

end Cert.BlockLinear

end
-- ==== Proof.RefValue.lean ====
/-
  The reference, read index by index, is the block-diagonal function `G` of the specification.

  The reference builds the 0/1 pattern as a Kronecker product: the 8 × 8 identity (`row == column` of two index grids, turned
  into a float) against a 1024 × 256 block of ones, laid out as [8, 1024, 8, 256] and reshaped to [8192, 2048]. Row `o` and
  column `h` of the reshaped array sit at `(o / 1024, o % 1024, h / 256, h % 256)`, so the entry is `[o / 1024 = h / 256] · 1`.
  The weight is multiplied by it, transposed, and contracted with `x` over all 2048 hidden positions; the law
  `sum_masked` keeps the 256 positions of `o`'s own group.
-/
import proofs.«140203_j63909113364673_2_alg».proof.Proof.Gen.ReferenceIdeal.Read
import proofs.«140203_j63909113364673_2_alg».proof.Proof.Spec
import Idealize.ShloMosaic.PureOps.IdealRules

noncomputable section

namespace Cert.ReferenceIdeal.RefValue

open Cert.ReferenceIdeal Cert.ReferenceIdeal.Gen Cert.ReferenceIdeal.Read
open Idealize.ShloMosaic Idealize.ShloMosaic.ValueIdx Cert.BlockLinear

/-- The word `1.0` denotes the extended real `1`. -/
theorem ofBits_one : Ideal.ofBits .f32 0x3F800000#32 = 1 := IdealRules.sign_bit.ideal_onePat .f32

/-- The comparison behind the 8 × 8 identity: `a + 0 == c` on 32-bit words is the bit `1` exactly when `a = c`
    (both below 8, so nothing wraps). -/
theorem eye_word : ∀ a c : Fin 8,
    IntOp.cmpi .eq (IntOp.addi (BitVec.ofNat 32 a.val) 0#32) (BitVec.ofNat 32 c.val) = if c = a then 1#1 else 0#1 := by
  decide

/-- THE PATTERN at row `o`, column `h`: `1` when the hidden position `h` lies in `o`'s group, `0` otherwise. -/
theorem mask_apply (o : Fin 8192) (h : Fin 2048) :
    val_main_v7 (F := Ideal) (ix2 o h) = if h.val / 256 = o.val / 1024 then 1 else 0 := by
  rw [val_main_v7_apply, val_main_call0_v4_apply, val_main_call0_v2_apply, val_main_call0_v0_apply, val_main_v5_apply,
    val_main_v4_apply, val_main_v3_apply, val_main_v0_apply, val_main_v2_apply, val_main_c_apply, val_main_v1_apply,
    val_main_call0_v3_apply, val_main_call0_v1_apply, val_main_v6_apply, val_main_cst_apply]
  show (((IntOp.cmpi .eq (IntOp.addi (BitVec.ofNat 32 ((o.val * 2048 + h.val) / 2097152)) 0#32)
      (BitVec.ofNat 32 ((o.val * 2048 + h.val) / 256 % 8))).toNat : ℝ) : EReal) * Ideal.ofBits .f32 0x3F800000#32 = _
  have ho : o.val < 8192 := o.isLt
  have hh : h.val < 2048 := h.isLt
  have ea : (o.val * 2048 + h.val) / 2097152 = o.val / 1024 := by omega
  have ec : (o.val * 2048 + h.val) / 256 % 8 = h.val / 256 := by omega
  rw [ofBits_one, mul_one, ea, ec]
  have hw := eye_word ⟨o.val / 1024, by omega⟩ ⟨h.val / 256, by omega⟩
  rw [show (BitVec.ofNat 32 (o.val / 1024)) = BitVec.ofNat 32 (⟨o.val / 1024, by omega⟩ : Fin 8).val from rfl,
    show (BitVec.ofNat 32 (h.val / 256)) = BitVec.ofNat 32 (⟨h.val / 256, by omega⟩ : Fin 8).val from rfl, hw]
  by_cases e : h.val / 256 = o.val / 1024
  · rw [if_pos (Fin.ext e), if_pos e]; simp
  · rw [if_neg (fun e' => e (congrArg Fin.val e')), if_neg e]; simp

/-- THE REFERENCE IS `G`: at row `r` and column `o` its dense contraction over 2048 hidden positions of `x` against the
    masked, transposed weight, plus the broadcast bias, is the sum over the 256 positions of `o`'s group plus `bias[o]`. -/
theorem ref_eq (x0 x1 : (⟨S8192x2048, .f32⟩ : BufTy).Contents (Elt Ideal)) (x2 : (⟨S8192, .f32⟩ : BufTy).Contents (Elt Ideal)) :
    val_main_v13 (F := Ideal) x0 x1 x2 = G x0 x1 x2 := by
  funext i
  obtain ⟨r, o, rfl⟩ : ∃ (r : Fin 8192) (o : Fin 8192), i = ix2 r o := ⟨i 0, i 1, eq_ix2 i⟩
  have el : ∀ k : Fin 2048, lidx_main_v10 (ix2 r o) k = ix2 r k := fun k =>
    funext fun a => Fin.ext (by match a with | ⟨0, _⟩ => rfl | ⟨1, _⟩ => rfl)
  have er : ∀ k : Fin 2048, idx_main_v9 (ridx_main_v10 (ix2 r o) k) = ix2 o k := fun k =>
    funext fun a => Fin.ext (by match a with | ⟨0, _⟩ => rfl | ⟨1, _⟩ => rfl)
  have eb : idx_main_v11 (idx_main_v12 (ix2 r o)) = ix1 o :=
    funext fun a => Fin.ext (by match a with | ⟨0, _⟩ => rfl)
  rw [G_apply, val_main_v13_apply, val_main_v10_apply, val_main_v12_apply, val_main_v11_apply, eb]
  simp only [val_main_v9_apply, val_main_v8_apply, el, er, Ideal.mulf_def, Ideal.addf_def]
  refine congrArg (· + x2 (ix1 o)) ?_
  refine sum_masked (grp o) (fun k => x0 (ix2 r k)) (fun k => x1 (ix2 o k)) (fun k => val_main_v7 (F := Ideal) (ix2 o k))
    (fun h e => ?_) (fun h e => ?_)
  · exact (mask_apply o h).trans (if_pos e)
  · exact (mask_apply o h).trans (if_neg e)

end Cert.ReferenceIdeal.RefValue

end
-- ==== Proof.Payload.lean ====
/-
  The kernel body's arithmetic, read at one entry of the output block.

  The body multiplies its [4096, 256] block of `x` with its [1024, 256] block of `w`, contracting the second axis of both
  (so the weight block is used transposed without being transposed), into a zero accumulator, and adds its [1, 1024]
  block of the bias repeated down the 4096 rows. At row `p` and column `q` of the block that is
      Σ_{k < 256} xblk[p, k] · wblk[q, k] + bblk[0, q].
-/
import proofs.«140203_j63909113364673_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The left operand's index at output entry `j` and contraction position `κ`: row `j 0` … -/
theorem lhs_row (j : S4096x1024.Idx) (κ : dot_S4096x256_S1024x256_S4096x1024_1_1_0_0_n_n.contr.Idx) :
    (dot_S4096x256_S1024x256_S4096x1024_1_1_0_0_n_n.lhsIdx j κ 0).val = (j 0).val := by
  unfold DotDims.lhsIdx
  rw [dif_neg (show ¬(0 : Fin S4096x256.rank) ∈ dot_S4096x256_S1024x256_S4096x1024_1_1_0_0_n_n.lhsBatch by decide),
    dif_pos (show (0 : Fin S4096x256.rank) ∈ dot_S4096x256_S1024x256_S4096x1024_1_1_0_0_n_n.lhsNonContracting by decide)]
  rfl

/-- … column `κ`. -/
theorem lhs_col (j : S4096x1024.Idx) (κ : dot_S4096x256_S1024x256_S4096x1024_1_1_0_0_n_n.contr.Idx) :
    (dot_S4096x256_S1024x256_S4096x1024_1_1_0_0_n_n.lhsIdx j κ 1).val = (κ ⟨0, by decide⟩).val :=
  dot_S4096x256_S1024x256_S4096x1024_1_1_0_0_n_n.lhsIdx_val_of_single rfl j κ

/-- The right operand's index there: row `j 1` (the output's COLUMN: the weight block enters transposed) … -/
theorem rhs_row (j : S4096x1024.Idx) (κ : dot_S4096x256_S1024x256_S4096x1024_1_1_0_0_n_n.contr.Idx) :
    (dot_S4096x256_S1024x256_S4096x1024_1_1_0_0_n_n.rhsIdx j κ 0).val = (j 1).val := by
  unfold DotDims.rhsIdx
  rw [dif_neg (show ¬(0 : Fin S1024x256.rank) ∈ dot_S4096x256_S1024x256_S4096x1024_1_1_0_0_n_n.rhsBatch by decide),
    dif_pos (show (0 : Fin S1024x256.rank) ∈ dot_S4096x256_S1024x256_S4096x1024_1_1_0_0_n_n.rhsNonContracting by decide)]
  rfl

/-- … column `κ`. -/
theorem rhs_col (j : S4096x1024.Idx) (κ : dot_S4096x256_S1024x256_S4096x1024_1_1_0_0_n_n.contr.Idx) :
    (dot_S4096x256_S1024x256_S4096x1024_1_1_0_0_n_n.rhsIdx j κ 1).val = (κ ⟨0, by decide⟩).val :=
  dot_S4096x256_S1024x256_S4096x1024_1_1_0_0_n_n.rhsIdx_val_of_single rfl j κ

/-- THE PAYLOAD AT AN ENTRY: the product of row `p` of the `x` block with row `q` of the `w` block, plus the bias
    block's entry of column `q`. -/
theorem pay_apply (v0 : Vec Ideal S4096x256 .f32) (v1 : Vec Ideal S1024x256 .f32) (v3 : Vec Ideal S1x1024 .f32)
    (p : Fin 4096) (q : Fin 1024) :
    k0_pay1 (F := Ideal) v0 v1 v3 (ix2 p q) = (∑ k : Fin 256, v0 (ix2 p k) * v1 (ix2 q k)) + v3 (ix2 (0 : Fin 1) q) := by
  unfold k0_pay1
  rw [addf_apply, broadcastTo_1b_ab_apply, shapeCast_self]
  refine congrArg (· + v3 (ix2 (0 : Fin 1) q)) ?_
  simp only [matmul]
  rw [Ideal.matmul_constant_zero_apply,
    ← Equiv.sum_comp (contrEquiv1 dot_S4096x256_S1024x256_S4096x1024_1_1_0_0_n_n 256 rfl rfl).symm]
  refine Finset.sum_congr rfl fun k _ => ?_
  have hk := contrEquiv1_symm_val dot_S4096x256_S1024x256_S4096x1024_1_1_0_0_n_n 256 rfl rfl k
  have el : dot_S4096x256_S1024x256_S4096x1024_1_1_0_0_n_n.lhsIdx (ix2 p q)
      ((contrEquiv1 dot_S4096x256_S1024x256_S4096x1024_1_1_0_0_n_n 256 rfl rfl).symm k) = ix2 p k :=
    funext fun a => Fin.ext (by
      match a with
      | ⟨0, _⟩ => exact lhs_row _ _
      | ⟨1, _⟩ => exact (lhs_col _ _).trans hk)
  have er : dot_S4096x256_S1024x256_S4096x1024_1_1_0_0_n_n.rhsIdx (ix2 p q)
      ((contrEquiv1 dot_S4096x256_S1024x256_S4096x1024_1_1_0_0_n_n 256 rfl rfl).symm k) = ix2 q k :=
    funext fun a => Fin.ext (by
      match a with
      | ⟨0, _⟩ => exact rhs_row _ _
      | ⟨1, _⟩ => exact (rhs_col _ _).trans hk)
  rw [el, er]

end Cert.KernelIdeal.Hand

end
-- ==== Proof.KernelValue.lean ====
/-
  From the kernel's blocks to its whole result array.

  The grid has 8 × 2 points `(g, s)`: group `g` of the output columns and half `s` of the rows. At a point the body
  reads rows `s·4096 …` and hidden positions `g·256 …` of `x`, rows `g·1024 …` and hidden positions `g·256 …` of `w` — the
  DIAGONAL block of the weight, the same `g` on both axes —, and columns `g·1024 …` of the bias laid out as one row,
  and writes rows `s·4096 …`, columns `g·1024 …` of the result. Output column `g·1024 + q` lies in group `g`, so the body's
  sum over its 256 hidden positions is the specification's sum over the positions `g·256 + k` of that column's group:
  each point writes its block of `G`, the 16 blocks tile the [8192, 8192] array, and the array ends holding `G`.
-/
import proofs.«140203_j63909113364673_2_alg».proof.Proof.Gen.KernelIdeal.Value
import proofs.«140203_j63909113364673_2_alg».proof.Proof.Spec
import proofs.«140203_j63909113364673_2_alg».proof.Proof.Payload
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Hand

open Cert.KernelIdeal Cert.KernelIdeal.Gen Cert.KernelIdeal.Value Cert.BlockLinear
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One point, over plain blocks -/

/-- AT ONE POINT, with half `a` of the rows and group `b` of the columns: if the three blocks are the arrays read at rows
    `a·4096 + p`, hidden positions `b·256 + k` (of `X`), rows `b·1024 + q`, hidden positions `b·256 + k` (of `W`) and
    entries `b·1024 + q` (of `B`), then the body's value at block entry `y` is `G` at the array entry `i` it lands on:
    column `b·1024 + q` has group `b`. -/
theorem point_eq (X W : (⟨2, ![8192, 2048]⟩ : Shape).Idx → EReal) (B : (⟨1, ![8192]⟩ : Shape).Idx → EReal)
    (v0 : Vec Ideal S4096x256 .f32) (v1 : Vec Ideal S1024x256 .f32) (v3 : Vec Ideal S1x1024 .f32)
    (a b : ℕ) (ha : a ≤ 1) (hb : b ≤ 7)
    (h0 : ∀ (p : Fin 4096) (k : Fin 256) (r : Fin 8192) (h : Fin 2048), r.val = a * 4096 + p.val → h.val = b * 256 + k.val →
      v0 (ix2 p k) = X (ix2 r h))
    (h1 : ∀ (q : Fin 1024) (k : Fin 256) (o : Fin 8192) (h : Fin 2048), o.val = b * 1024 + q.val → h.val = b * 256 + k.val →
      v1 (ix2 q k) = W (ix2 o h))
    (h3 : ∀ (q : Fin 1024) (o : Fin 8192), o.val = b * 1024 + q.val → v3 (ix2 (0 : Fin 1) q) = B (ix1 o))
    (y : S4096x1024.Idx) (i : S8192x8192.Idx)
    (hi0 : (i 0).val = a * 4096 + (y 0).val) (hi1 : (i 1).val = b * 1024 + (y 1).val) :
    k0_pay1 (F := Ideal) v0 v1 v3 y = G X W B i := by
  obtain ⟨p, q, rfl⟩ : ∃ (p : Fin 4096) (q : Fin 1024), y = ix2 p q := ⟨y 0, y 1, eq_ix2 y⟩
  obtain ⟨r, o, rfl⟩ : ∃ (r : Fin 8192) (o : Fin 8192), i = ix2 r o := ⟨i 0, i 1, eq_ix2 i⟩
  have hr : r.val = a * 4096 + p.val := hi0
  have ho : o.val = b * 1024 + q.val := hi1
  have hg : (grp o).val = b := by rw [grp_val, ho]; omega
  rw [pay_apply, G_apply, h3 q o ho]
  refine congrArg (· + B (ix1 o)) (Finset.sum_congr rfl fun k _ => ?_)
  rw [h0 p k r (hid (grp o) k) hr (by rw [hid_val, hg]), h1 q k o (hid (grp o) k) ho (by rw [hid_val, hg])]

/-! ## The printed index maps over the 16 points -/

/-- The `x` block moves with the output block; the weight block sits on the diagonal at the output's column group; the
    bias block is in row 0 at that group; the output's block indices stay inside 2 × 8. -/
theorem idx_facts : ∀ t : Fin cfg0.N,
    win0_0.index t (0 : Fin 2) = win0_3.index t (0 : Fin 2)
    ∧ win0_0.index t (1 : Fin 2) = win0_3.index t (1 : Fin 2)
    ∧ win0_1.index t (0 : Fin 2) = win0_3.index t (1 : Fin 2)
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 1
    ∧ win0_3.index t (1 : Fin 2) ≤ 7 :=
  (by decide +kernel : ∀ t : Fin grid0.N, _)

/-- Every one of the 2 × 8 output blocks is some point's. -/
theorem idx_onto : ∀ (q0 : Fin 2) (q1 : Fin 8), ∃ t : Fin cfg0.N, win0_3.index t = ![q0.val, q1.val] :=
  (by decide +kernel : ∀ (q0 : Fin 2) (q1 : Fin 8), ∃ t : Fin grid0.N, win0_3.index t = ![q0.val, q1.val])

/-! ## The bias as the region finds it -/

/-- Before the region the host lays the bias vector out as one row. -/
theorem V_bias (c : Dev nD) :
    (V m c main_v0 : S1x8192.Idx → EReal) = shapeCast S1x8192 (m ((c : Thread nD τ).loc main_arg2)) shapeCasts_S8192_S1x8192 := by
  dsimp only [Gen.V, Gen.hostOps0]
  after_results
  rfl

/-- So its entry in column `o` is the bias of `o`. -/
theorem V_bias_apply (c : Dev nD) (u : Fin 1) (o : Fin 8192) :
    (V m c main_v0 : S1x8192.Idx → EReal) (ix2 u o) = (m ((c : Thread nD τ).loc main_arg2) : S8192.Idx → EReal) (ix1 o) := by
  rw [V_bias]
  exact shapeCast_a_1a_apply _ _ u o

/-! ## The input blocks at a point, as entries of the arrays -/

/-- The `x` block at point `t`: entry `(p, k)` is `x` at row `index₀·4096 + p`, hidden position `index₁·256 + k`. -/
theorem iblk0_apply (c : Dev nD) (t : Fin cfg0.N) (p : Fin 4096) (k : Fin 256) (r : Fin 8192) (h : Fin 2048)
    (hr : r.val = win0_3.index t (0 : Fin 2) * 4096 + p.val) (hh : h.val = win0_3.index t (1 : Fin 2) * 256 + k.val) :
    (iblk m c 0 t : Vec Ideal S4096x256 .f32) (ix2 p k) = (V m c main_arg0 : S8192x2048.Idx → EReal) (ix2 r h) := by
  obtain ⟨e0, e1, e2, e3, e4, e5, e6, e7⟩ := idx_facts t
  unfold iblk
  rw [View.read_apply]
  show V m c main_arg0 _ = V m c main_arg0 _
  congr 1
  funext a
  apply Fin.ext
  match a with
  | ⟨0, _⟩ => show win0_0.index t (0 : Fin 2) * 4096 + 1 * p.val = r.val; omega
  | ⟨1, _⟩ => show win0_0.index t (1 : Fin 2) * 256 + 1 * k.val = h.val; omega

/-- The weight block at point `t`: entry `(q, k)` is `w` at row `index₁·1024 + q`, hidden position `index₁·256 + k` — the
    output's COLUMN group on both axes. -/
theorem iblk1_apply (c : Dev nD) (t : Fin cfg0.N) (q : Fin 1024) (k : Fin 256) (o : Fin 8192) (h : Fin 2048)
    (ho : o.val = win0_3.index t (1 : Fin 2) * 1024 + q.val) (hh : h.val = win0_3.index t (1 : Fin 2) * 256 + k.val) :
    (iblk m c 1 t : Vec Ideal S1024x256 .f32) (ix2 q k) = (V m c main_arg1 : S8192x2048.Idx → EReal) (ix2 o h) := by
  obtain ⟨e0, e1, e2, e3, e4, e5, e6, e7⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * q.val = o.val; omega
  | ⟨1, _⟩ => show win0_1.index t (1 : Fin 2) * 256 + 1 * k.val = h.val; omega

/-- The bias block at point `t`: entry `(0, q)` is the bias of column `index₁·1024 + q`. -/
theorem iblk2_apply (c : Dev nD) (t : Fin cfg0.N) (q : Fin 1024) (o : Fin 8192)
    (ho : o.val = win0_3.index t (1 : Fin 2) * 1024 + q.val) :
    (iblk m c 2 t : Vec Ideal S1x1024 .f32) (ix2 (0 : Fin 1) q) = (m ((c : Thread nD τ).loc main_arg2) : S8192.Idx → EReal) (ix1 o) := by
  obtain ⟨e0, e1, e2, e3, e4, e5, e6, e7⟩ := idx_facts t
  rw [← V_bias_apply m c 0 o]
  unfold iblk
  rw [View.read_apply]
  show V m c main_v0 _ = V m c main_v0 _
  congr 1
  funext a
  apply Fin.ext
  match a with
  | ⟨0, _⟩ => show win0_2.index t (0 : Fin 2) * 1 + 1 * 0 = 0; omega
  | ⟨1, _⟩ => show win0_2.index t (1 : Fin 2) * 1024 + 1 * q.val = o.val; omega

/-! ## Each point writes its block of `G`; the blocks cover the array -/

/-- WHAT POINT `t` WRITES BACK is block `t` of `G` of the arrays as the region finds them. -/
theorem flushed_eq (c : Dev nD) (t : Fin cfg0.N) :
    (dats m 0 c).flushed 3 t = ((cfg0.win 3).blk t).view.read (Elt Ideal)
      (G (V m c main_arg0) (V m c main_arg1) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S4096x256) hz, View.ld_unit_zero (S := S1024x256) hz, View.ld_unit_zero (S := S1x1024) hz]
  obtain ⟨e0, e1, e2, e3, e4, e5, e6, e7⟩ := idx_facts t
  funext j
  show k0_pay1 (F := Ideal) (iblk m c 0 t) (iblk m c 1 t) (iblk m c 2 t) j
    = G (V m c main_arg0) (V m c main_arg1) (m ((c : Thread nD τ).loc main_arg2)) (((cfg0.win 3).blk t).view.emb j)
  refine point_eq _ _ _ _ _ _ (win0_3.index t (0 : Fin 2)) (win0_3.index t (1 : Fin 2)) e6 e7
    (fun p k r h hr hh => iblk0_apply m c t p k r h hr hh) (fun q k o h ho hh => iblk1_apply m c t q k o h ho hh)
    (fun q o ho => iblk2_apply m c t q o ho) j _ ?_ ?_
  · show win0_3.index t (0 : Fin 2) * 4096 + 1 * (j 0).val = win0_3.index t (0 : Fin 2) * 4096 + (j 0).val
    omega
  · show win0_3.index t (1 : Fin 2) * 1024 + 1 * (j 1).val = win0_3.index t (1 : Fin 2) * 1024 + (j 1).val
    omega

/-- An entry of the array is in point `t`'s block iff each coordinate is in the block's range on its axis. -/
theorem mem_blk (t : Fin cfg0.N) (i : S8192x8192.Idx) :
    i ∈ ((cfg0.win 3).blk t).view.set ↔ ∀ a : Fin 2, win0_3.index t a * S4096x1024.size a ≤ (i a).val
      ∧ (i a).val < win0_3.index t a * S4096x1024.size a + S4096x1024.size a := by
  show i ∈ ((View.whole main_v1).slice (win0_3.rect t)).set ↔ _
  rw [View.set_slice_whole, Rect.mem_set_unit]
  exact Iff.rfl

/-- Every entry of the result array is in some point's block: row `r` in half `r / 4096`, column `o` in group `o / 1024`. -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 4096, by omega⟩ ⟨(i 1).val / 1024, by omega⟩
  have q0 : win0_3.index t (0 : Fin 2) = (i 0).val / 4096 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 1024 ≤ (i 1).val ∧ (i 1).val < win0_3.index t (1 : Fin 2) * 1024 + 1024
    omega

/-- THE RESULT ARRAY after the run is `G` of the three argument arrays. -/
theorem final (c : Dev nD) : (dats m 0 c).arrAt 3 cfg0.N
    = G (m ((c : Thread nD τ).loc main_arg0)) (m ((c : Thread nD τ).loc main_arg1)) (m ((c : Thread nD τ).loc main_arg2)) := by
  rw [(dats m 0 c).arrAt_eq_of_cover 3 (G (V m c main_arg0) (V m c main_arg1) (m ((c : Thread nD τ).loc main_arg2)))
    (fun t _ => flushed_eq m c t) cover, V_main_arg0, V_main_arg1]

/-- THE RUN, read: the result array at `G` of the arguments, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.lean ====
/-
  A linear layer whose weight is block-diagonal, against the dense product with a masked weight.

  The kernel computes, for row `r` and output column `o` in column group `g = o / 1024`,
      out[r, o] = Σ_{k < 256} x[r, g·256 + k] · w[o, g·256 + k] + bias[o],
  one 4096 × 1024 block per grid point from the diagonal block of the weight alone. The reference multiplies the whole
  weight by the 0/1 pattern `[o / 1024 = h / 256]` (a Kronecker product of the 8 × 8 identity with a block of ones),
  contracts with `x` over all 2048 hidden positions `h` and adds the bias. On the extended reals the two are one function
  `G` (Proof/Spec.lean): the terms outside the group are `x · (w · 0) = 0` whatever `x` and `w` are, those inside carry
  the factor 1, and a sum may be re-indexed freely. Nothing here uses that the inputs are finite.

  Proof/RefValue.lean reads the reference's run as `G`; Proof/Payload.lean reads the kernel body's arithmetic at one
  block entry; Proof/KernelValue.lean carries the 16 blocks to the whole array. The three frames are the generated
  ones (the reference's is its generated run with the result dropped), and the idealization changed no operation.
-/
import proofs.«140203_j63909113364673_2_alg».proof.Defs
import proofs.«140203_j63909113364673_2_alg».proof.Proof.Gen.Kernel
import proofs.«140203_j63909113364673_2_alg».proof.Proof.Gen.Kernel.Skeleton
import proofs.«140203_j63909113364673_2_alg».proof.Proof.Gen.Kernel.Launch
import proofs.«140203_j63909113364673_2_alg».proof.Proof.Gen.Kernel.Points
import proofs.«140203_j63909113364673_2_alg».proof.Proof.Gen.Kernel.Frame
import proofs.«140203_j63909113364673_2_alg».proof.Proof.Gen.KernelIdeal
import proofs.«140203_j63909113364673_2_alg».proof.Proof.Gen.KernelIdeal.Skeleton
import proofs.«140203_j63909113364673_2_alg».proof.Proof.Gen.KernelIdeal.Launch
import proofs.«140203_j63909113364673_2_alg».proof.Proof.Gen.KernelIdeal.Points
import proofs.«140203_j63909113364673_2_alg».proof.Proof.Gen.KernelIdeal.Frame
import proofs.«140203_j63909113364673_2_alg».proof.Proof.Gen.ReferenceIdeal
import proofs.«140203_j63909113364673_2_alg».proof.Proof.Gen.Pre_finite_inputs
import proofs.«140203_j63909113364673_2_alg».proof.Proof.Gen.KernelIdeal.Value
import proofs.«140203_j63909113364673_2_alg».proof.Proof.Gen.ReferenceIdeal.Run
import proofs.«140203_j63909113364673_2_alg».proof.Proof.Gen.ReferenceIdeal.Read
import proofs.«140203_j63909113364673_2_alg».proof.Proof.Spec
import proofs.«140203_j63909113364673_2_alg».proof.Proof.RefValue
import proofs.«140203_j63909113364673_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with their result array at `G` of the same three argument arrays. -/
theorem algebraic : Cert.algebraic_KernelIdeal_ReferenceIdeal := by
  intro m ρ m' ρ' _ hagree
  refine ⟨fun c => Cert.BlockLinear.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq (F := Ideal) _ _ _).trans ?_
  rw [Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
